-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S256x512 : Shape := ⟨2, ![256, 512]⟩
abbrev S1x256 : Shape := ⟨2, ![1, 256]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S1x256 : S_.BroadcastsInDim S1x256 (![] : Fin 0 → Fin S1x256.rank)
  reducesTo_S1x256_S_d0_1 : S1x256.ReducesTo [0, 1] S_

variable [Facts]

def fn {F : FTy → Type} [FloatOps F] (main_arg0 : FVec F S65536x512 .f32) (main_arg1 : FVec F S256x512 .f32) (main_arg2 : FVec F S1x256 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S1x256 .f32 := Host.absf main_arg2
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  main_v13
-- ==== Kernel.lean ====
abbrev S65536x512 : Shape := ⟨2, ![65536, 512]⟩
abbrev S256x512 : Shape := ⟨2, ![256, 512]⟩
abbrev S1x256 : Shape := ⟨2, ![1, 256]⟩
abbrev S65536x256 : Shape := ⟨2, ![65536, 256]⟩
abbrev S4096x512 : Shape := ⟨2, ![4096, 512]⟩
abbrev S4096x256 : Shape := ⟨2, ![4096, 256]⟩

abbrev nBuf : Space → Nat
  | .hbm => 4
  | .vmem => 6
  | .smem => 0
  | _ => 0

abbrev bufTy : (tb : Table) → Fin (tcTables nBuf tb) → BufTy
  | .hbm, ⟨0, _⟩ => ⟨S65536x512, .f32⟩
  | .hbm, ⟨1, _⟩ => ⟨S256x512, .f32⟩
  | .hbm, ⟨2, _⟩ => ⟨S1x256, .f32⟩
  | .hbm, ⟨3, _⟩ => ⟨S65536x256, .f32⟩
  | .local _ .vmem, ⟨0, _⟩ => ⟨S4096x512, .f32⟩
  | .local _ .vmem, ⟨1, _⟩ => ⟨S4096x512, .f32⟩
  | .local _ .vmem, ⟨2, _⟩ => ⟨S256x512, .f32⟩
  | .local _ .vmem, ⟨3, _⟩ => ⟨S1x256, .f32⟩
  | .local _ .vmem, ⟨4, _⟩ => ⟨S4096x256, .f32⟩
  | .local _ .vmem, ⟨5, _⟩ => ⟨S4096x256, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S4096x512_S4096x512_0_0 : ∀ a, (![0, 0] : Fin 2 → Nat) a + S4096x512.size a ≤ S4096x512.size a
  h_S4096x512 : 0 < S4096x512.numel
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S1x256_S1x256_0_0 : ∀ a, (![0, 0] : Fin 2 → Nat) a + S1x256.size a ≤ S1x256.size a
  h_S1x256 : 0 < S1x256.numel
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  dot_S4096x512_S256x512_S4096x256_1_1_0_0_n_n_wf : DotDims.WF S4096x512 S256x512 S4096x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S65536x512.size a
  hwx0_0 : ∀ i : grid0.Coords, EltTy.bits .f32 = 32 ∨ (Rect.block (s := S65536x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S65536x256.size a
  hwx0_3 : ∀ i : grid0.Coords, EltTy.bits .f32 = 32 ∨ (Rect.block (s := S65536x256) S4096x256.size (cc0_transform_3 i) (hinb0_3 i)).WholeWords (EltTy.packing .f32)

variable [Facts₀]

def dot_S4096x512_S256x512_S4096x256_1_1_0_0_n_n : DotDims S4096x512 S256x512 S4096x256 where
  lhsContracting := [1]
  rhsContracting := [1]
  lhsNonContracting := [0]
  rhsNonContracting := [0]
  lhsBatch := []
  rhsBatch := []
  wf := dot_S4096x512_S256x512_S4096x256_1_1_0_0_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x512 : Shape := ⟨2, ![65536, 512]⟩
abbrev S256x512 : Shape := ⟨2, ![256, 512]⟩
abbrev S1x256 : Shape := ⟨2, ![1, 256]⟩
abbrev S_ : Shape := ⟨0, ![]⟩
abbrev S65536x256 : Shape := ⟨2, ![65536, 256]⟩

abbrev nBuf : Space → Nat
  | .hbm => 15
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S256x512, .f32⟩
  | .hbm, ⟨2, _⟩ => ⟨S1x256, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S65536x256, .f32⟩
  | .hbm, ⟨8, _⟩ => ⟨S65536x256, .f32⟩
  | .hbm, ⟨9, _⟩ => ⟨S65536x256, .f32⟩
  | .hbm, ⟨10, _⟩ => ⟨S_, .f32⟩
  | .hbm, ⟨11, _⟩ => ⟨S1x256, .f32⟩
  | .hbm, ⟨12, _⟩ => ⟨S1x256, .f32⟩
  | .hbm, ⟨13, _⟩ => ⟨S65536x256, .f32⟩
  | .hbm, ⟨14, _⟩ => ⟨S65536x256, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S_S65536x256 : S_.BroadcastsInDim S65536x256 (![] : Fin 0 → Fin S65536x256.rank)
  bcast_S_S1x256 : S_.BroadcastsInDim S1x256 (![] : Fin 0 → Fin S1x256.rank)
  bcast_S1x256_S65536x256_0_1 : S1x256.BroadcastsInDim S65536x256 (![0, 1] : Fin 2 → Fin S65536x256.rank)
  dot_S65536x512_S256x512_S65536x256_1_1_0_0_n_n_wf : DotDims.WF S65536x512 S256x512 S65536x256 [1] [1] [0] [0] [] []

variable [Facts₀]

def dot_S65536x512_S256x512_S65536x256_1_1_0_0_n_n : DotDims S65536x512 S256x512 S65536x256 where
  lhsContracting := [1]
  rhsContracting := [1]
  lhsNonContracting := [0]
  rhsNonContracting := [0]
  lhsBatch := []
  rhsBatch := []
  wf := dot_S65536x512_S256x512_S65536x256_1_1_0_0_n_n_wf

class Facts : Prop extends Facts₀ where

variable [Facts]
-- ==== Proof.LinearSpec.lean ====
/-
  The scaled linear layer this certificate is about, as ONE function of the three argument arrays, entry by entry:

      out[r, q] = (∑ k < 512, x[r, k] * w[q, k]) * (1/8) + b[0, q] * c

  over the extended reals, where 1/8 is the pattern 0x3E000000 and c the pattern 0x3DCCCCCD (the float nearest
  one tenth; both programs spell the same pattern, so its value is never needed).  The row of x is contracted with
  the row of w (x times the transpose of w), the bias row is repeated down the 65536 rows.
  Also here: the one numerical fact that joins the two programs.  The reference computes its scale as
  1 / sqrt 64; the square root of 64 is exactly 8, so that quotient is exactly the pattern for 1/8.
-/
import Idealize.ShloMosaic.PureOps.Ideal
import Idealize.ShloMosaic.Lib.ValueIdx

noncomputable section

namespace Cert.LinearSpec

open Idealize.ShloMosaic Idealize.ShloMosaic.ValueIdx

/-- Entry (r, q) of the scaled linear layer: row r of x against row q of w, times 1/8, plus a tenth of the bias at q. -/
def linear (x : (⟨2, ![65536, 512]⟩ : Shape).Idx → EReal) (w : (⟨2, ![256, 512]⟩ : Shape).Idx → EReal)
    (b : (⟨2, ![1, 256]⟩ : Shape).Idx → EReal) : (⟨2, ![65536, 256]⟩ : Shape).Idx → EReal :=
  fun i => (∑ k : Fin 512, x (ix2 (i 0) k) * w (ix2 (i 1) k)) * Ideal.ofBits .f32 0x3E000000#32
    + b (ix2 (0 : Fin 1) (i 1)) * Ideal.ofBits .f32 0x3DCCCCCD#32

/-- The pattern 0x42800000 denotes 64. -/
theorem ofBits_sixtyfour : Ideal.ofBits .f32 0x42800000#32 = ((64 : ℝ) : EReal) := by
  simp [Ideal.ofBits, Ideal.ieee, -EReal.coe_mul]; norm_num

/-- The pattern 0x3F800000 denotes 1. -/
theorem ofBits_one : Ideal.ofBits .f32 0x3F800000#32 = ((1 : ℝ) : EReal) := by
  simp [Ideal.ofBits, Ideal.ieee, -EReal.coe_mul]; norm_num

/-- The pattern 0x3E000000 denotes 1/8. -/
theorem ofBits_eighth : Ideal.ofBits .f32 0x3E000000#32 = ((1 / 8 : ℝ) : EReal) := by
  simp [Ideal.ofBits, Ideal.ieee, -EReal.coe_mul]; norm_num

/-- The square root of 64 is 8. -/
theorem sqrt_sixtyfour : Real.sqrt 64 = 8 := by
  rw [show (64 : ℝ) = 8 ^ 2 by norm_num]
  exact Real.sqrt_sq (by norm_num)

/-- One over the square root of 64 is one eighth, exactly: the reference's scale is the kernel's. -/
theorem inv_sqrt_sixtyfour :
    Ideal.div (Ideal.ofBits .f32 0x3F800000#32) (Ideal.sqrt (Ideal.ofBits .f32 0x42800000#32))
      = Ideal.ofBits .f32 0x3E000000#32 := by
  rw [ofBits_sixtyfour, ofBits_one, ofBits_eighth, Ideal.sqrt_coe, if_neg (by norm_num), sqrt_sixtyfour,
    Ideal.div_coe (by norm_num : (8 : ℝ) ≠ 0), ← EReal.coe_mul, one_mul]

end Cert.LinearSpec

end
-- ==== Proof.RefValue.lean ====
/-
  The reference program computes the scaled linear layer of LinearSpec.lean.

  Entry (r, q) of its result is  dot(x, w)[r, q] * s + (b * c)[0, q]  where dot contracts axis 1 of x with axis 1 of w
  (a sum over k < 512 of x[r, k] * w[q, k]), s is the scalar  1 / sqrt 64  repeated over the whole array, and the bias
  row times the constant c is repeated down the rows.  Reading each operation at the index (r, q) gives the
  specification's formula once  1 / sqrt 64  is replaced by the pattern for 1/8 (LinearSpec.inv_sqrt_sixtyfour).
-/
import proofs.«168770_j60790967108190_2_alg».proof.Proof.Gen.ReferenceIdeal.Read
import proofs.«168770_j60790967108190_2_alg».proof.Proof.LinearSpec

noncomputable section

namespace Cert.ReferenceIdeal.RefValue

open Cert.ReferenceIdeal Cert.ReferenceIdeal.Gen Cert.ReferenceIdeal.Read
open Idealize.ShloMosaic Idealize.ShloMosaic.ValueIdx

/-- The reference's last stage, as a function of the three arguments, is the scaled linear layer. -/
theorem result_eq (x : FVec Ideal S65536x512 .f32) (w : FVec Ideal S256x512 .f32) (b : FVec Ideal S1x256 .f32) :
    val_main_v8 (F := Ideal) x w b = Cert.LinearSpec.linear x w b := by
  funext i
  -- the left operand of the product is read at (r, k), the right one at (q, k), the bias row at (0, q)
  have el : ∀ k : Fin 512, lidx_main_v2 i k = ix2 (i 0) k := fun k =>
    funext fun a => Fin.ext (by match a with | ⟨0, _⟩ => rfl | ⟨1, _⟩ => rfl)
  have er : ∀ k : Fin 512, ridx_main_v2 i k = ix2 (i 1) k := fun k =>
    funext fun a => Fin.ext (by match a with | ⟨0, _⟩ => rfl | ⟨1, _⟩ => rfl)
  have eb : idx_main_v7 i = ix2 (0 : Fin 1) (i 1) :=
    funext fun a => Fin.ext (by match a with | ⟨0, _⟩ => rfl | ⟨1, _⟩ => rfl)
  rw [val_main_v8_apply, val_main_v4_apply, val_main_v2_apply, val_main_v3_apply, val_main_v1_apply,
    val_main_cst_0_apply, val_main_v0_apply, val_main_cst_apply, val_main_v7_apply, val_main_v6_apply,
    val_main_v5_apply, val_main_cst_1_apply]
  simp only [el, er, eb, Ideal.addf_def, Ideal.mulf_def, Ideal.hostDivf_def, Ideal.hostUnary_sqrt_def, Ideal.ofBits_def,
    Cert.LinearSpec.inv_sqrt_sixtyfour]
  rfl

end Cert.ReferenceIdeal.RefValue

end
-- ==== Proof.LibMatmulSumT.lean ====
/-
  A matrix product with the RIGHT operand contracted on its axis 1,  [n, K] x [w, K] -> [n, w]  (the left matrix against
  the transpose of the right one), at the ideal values, for any contraction length K and whichever record of dimension
  numbers spells it: the sum over the record's own contraction index, read at entry (p, q), is the sum over k < K of
  left(p, k) * right(q, k).  A kernel's matrix-unit product into a zero accumulator is that sum.
  The record enters only through six facts about its index maps (one contracted axis of extent K; both operands
  contracted on their axis 1; the result's axes the left's axis 0 and the right's axis 0).
-/
import Idealize.ShloMosaic.PureOps.Ideal.Laws
import Idealize.ShloMosaic.Lib.Pipeline.Value
import Idealize.ShloMosaic.Lib.ValueIdx

noncomputable section

namespace Cert.LibMatmulSumT

open Idealize.ShloMosaic Idealize.ShloMosaic.ValueIdx

/-- The index facts of a product against a transposed right operand, with contraction length `K`. -/
structure PlainT {n K w : ℕ} (d : DotDims ⟨2, ![n, K]⟩ ⟨2, ![w, K]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (i 1).val
  r1 : ∀ (i : (⟨2, ![n, w]⟩ : Shape).Idx) (q : d.contr.Idx), (d.rhsIdx i q 1).val = (q ⟨0, by rw [rank]; exact Nat.one_pos⟩).val

/-- The contraction sum at entry (p, q), re-indexed by k < K. -/
theorem sum_eq_T {n K w : ℕ} {d : DotDims ⟨2, ![n, K]⟩ ⟨2, ![w, K]⟩ ⟨2, ![n, w]⟩} (hd : PlainT d)
    (l : (⟨2, ![n, K]⟩ : Shape).Idx → EReal) (r : (⟨2, ![w, K]⟩ : Shape).Idx → EReal) (p : Fin n) (q : Fin w) :
    (∑ k : d.contr.Idx, l (d.lhsIdx (ix2 p q) k) * r (d.rhsIdx (ix2 p q) k)) = ∑ k : Fin K, l (ix2 p k) * r (ix2 q k) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 q k := funext fun a => Fin.ext (by
    match a with
    | ⟨0, _⟩ => exact hd.r0 _ _
    | ⟨1, _⟩ => exact (hd.r1 _ _).trans hk)
  rw [el, er]

/-- A matrix-unit product into the zero accumulator, at entry (p, q). -/
theorem matmul_zero_at_T {n K w : ℕ} {d : DotDims ⟨2, ![n, K]⟩ ⟨2, ![w, K]⟩ ⟨2, ![n, w]⟩} (hd : PlainT d) {φ₁ φ₂ : FTy}
    (prec : Option ContractPrecision) (l : FVec Ideal ⟨2, ![n, K]⟩ φ₁) (r : FVec Ideal ⟨2, ![w, K]⟩ φ₂) (p : Fin n) (q : Fin w) :
    FloatOps.matmul d prec l r (constant ⟨2, ![n, w]⟩ .f32 0x00000000#32) (ix2 p q) = ∑ k : Fin K, l (ix2 p k) * r (ix2 q k) :=
  (Ideal.matmul_constant_zero_apply d prec l r (ix2 p q)).trans (sum_eq_T hd l r p q)

end Cert.LibMatmulSumT

end
-- ==== Proof.KernelPayload.lean ====
/-
  What the kernel body stores, read at one entry.

  From its three loaded blocks — X (4096 rows of x), W (all of w) and B (the bias row) — the body stores
      (X · Wᵀ into a zero accumulator) * (1/8)  +  (B * c) repeated down the rows,
  the two roundings to a shorter format being the identity on extended reals.  At entry (p, q) of the block that is
      (∑ k < 512, X[p, k] * W[q, k]) * (1/8) + B[0, q] * c.
  The product is read by the transposed-right-operand lemma (LibMatmulSumT.lean), which needs six facts about the
  index maps of the product's record of dimension numbers; they are proved first.
-/
import proofs.«168770_j60790967108190_2_alg».proof.Proof.Gen.KernelIdeal.Skeleton
import proofs.«168770_j60790967108190_2_alg».proof.Proof.LibMatmulSumT
import Idealize.ShloMosaic.Lib.Pipeline.Value
import Idealize.ShloMosaic.Lib.ValueIdx

noncomputable section

namespace Cert.KernelIdeal.Payload

open Cert.KernelIdeal Cert.KernelIdeal.Gen
open Idealize.ShloMosaic Idealize.ShloMosaic.ValueIdx

/-- The body's product contracts axis 1 of both operands over one axis of length 512, and its result's axes are the
    left operand's rows and the right operand's rows. -/
theorem product_dims : Cert.LibMatmulSumT.PlainT (n := 4096) (K := 512) (w := 256)
    dot_S4096x512_S256x512_S4096x256_1_1_0_0_n_n where
  rank := rfl
  size := rfl
  l0 := fun i q => by
    unfold DotDims.lhsIdx
    rw [dif_neg (show ¬(0 : Fin S4096x512.rank) ∈ dot_S4096x512_S256x512_S4096x256_1_1_0_0_n_n.lhsBatch by decide),
      dif_pos (show (0 : Fin S4096x512.rank) ∈ dot_S4096x512_S256x512_S4096x256_1_1_0_0_n_n.lhsNonContracting by decide)]
    rfl
  l1 := fun i q => dot_S4096x512_S256x512_S4096x256_1_1_0_0_n_n.lhsIdx_val_of_single rfl i q
  r0 := fun i q => by
    unfold DotDims.rhsIdx
    rw [dif_neg (show ¬(0 : Fin S256x512.rank) ∈ dot_S4096x512_S256x512_S4096x256_1_1_0_0_n_n.rhsBatch by decide),
      dif_pos (show (0 : Fin S256x512.rank) ∈ dot_S4096x512_S256x512_S4096x256_1_1_0_0_n_n.rhsNonContracting by decide)]
    rfl
  r1 := fun i q => dot_S4096x512_S256x512_S4096x256_1_1_0_0_n_n.rhsIdx_val_of_single rfl i q

/-- The bias row repeated down 4096 rows, read at (p, q), is the row's entry q. -/
theorem bias_rows_at (v : FVec Ideal S1x256 .f32) (p : Fin 4096) (q : Fin 256) :
    broadcastTo S4096x256 v broadcasts_S1x256_S4096x256 (ix2 p q) = v (ix2 (0 : Fin 1) q) :=
  broadcastTo_apply v broadcasts_S1x256_S4096x256 (ix2 p q) (ix2 (0 : Fin 1) q) fun a => by
    match a with
    | ⟨0, _⟩ => show 0 = if (1 : Nat) = 1 then 0 else _; rw [if_pos rfl]
    | ⟨1, _⟩ => show q.val = if (256 : Nat) = 1 then 0 else q.val; rw [if_neg (by decide)]

/-- The stored block at entry (p, q): row p of X against row q of W, times 1/8, plus a tenth of the bias at q. -/
theorem stored_at (X : FVec Ideal S4096x512 .f32) (W : FVec Ideal S256x512 .f32) (B : FVec Ideal S1x256 .f32)
    (p : Fin 4096) (q : Fin 256) :
    k0_pay1 (F := Ideal) X W B (ix2 p q)
      = (∑ k : Fin 512, X (ix2 p k) * W (ix2 q k)) * Ideal.ofBits .f32 0x3E000000#32
        + B (ix2 (0 : Fin 1) q) * Ideal.ofBits .f32 0x3DCCCCCD#32 := by
  unfold k0_pay1
  rw [addf_apply, mulf_apply, broadcast_apply, bias_rows_at, mulf_apply, broadcast_apply]
  -- the two roundings are the identity, so the product's operands are X and W themselves
  have hprod : matmul (F := Ideal) dot_S4096x512_S256x512_S4096x256_1_1_0_0_n_n none (truncf .bf16 X bitsLt_bf16_f32)
      (truncf .bf16 W bitsLt_bf16_f32) (constant S4096x256 .f32 0x00000000#32) (ix2 p q)
        = ∑ k : Fin 512, X (ix2 p k) * W (ix2 q k) :=
    (Cert.LibMatmulSumT.matmul_zero_at_T product_dims none (truncf .bf16 X bitsLt_bf16_f32)
      (truncf .bf16 W bitsLt_bf16_f32) p q).trans (Finset.sum_congr rfl fun _ _ => rfl)
  rw [hprod]
  rfl

end Cert.KernelIdeal.Payload

end
-- ==== Proof.KernelValue.lean ====
/-
  From the blocks the kernel writes to the whole result array.

  The grid has 16 points.  At point t the body sees rows 4096·t … 4096·t + 4095 of x, all of w and the bias row, and
  its stored block goes back to rows 4096·t … 4096·t + 4095 of the result (all 256 columns).  So entry (p, q) of the
  block written at point t is entry (4096·t + p, q) of the scaled linear layer of the three argument arrays
  (KernelPayload.stored_at read through the blocks), the 16 row blocks tile the 65536 rows, and the result array ends
  holding the scaled linear layer everywhere.
-/
import proofs.«168770_j60790967108190_2_alg».proof.Proof.Gen.KernelIdeal.Value
import proofs.«168770_j60790967108190_2_alg».proof.Proof.KernelPayload
import proofs.«168770_j60790967108190_2_alg».proof.Proof.LinearSpec
import Idealize.ShloMosaic.Lib.Pipeline.Value
import Idealize.ShloMosaic.Lib.ValueIdx

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Which block each operand sees at grid point t: x and the result move down one row block per point, w and the bias
    stay at their only block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The block of x at point t is rows 4096·t … of x. -/
theorem x_block_at (c : Dev nD) (t : Fin cfg0.N) (y : S4096x512.Idx) (i : S65536x512.Idx)
    (h0 : (i 0).val = 4096 * t.val + (y 0).val) (h1 : (i 1).val = (y 1).val) :
    (iblk m c 0 t : Vec Ideal S4096x512 .f32) y = (V m c main_arg0 : S65536x512.Idx → EReal) i := by
  obtain ⟨e0, e1, -⟩ := block_indices t
  show V m c main_arg0 (((cfg0.win 0).blk t).view.emb y) = V m c main_arg0 i
  refine congrArg (V m c main_arg0) (funext fun a => Fin.ext ?_)
  match a with
  | ⟨0, _⟩ => show win0_0.index t (0 : Fin 2) * 4096 + 1 * (y 0).val = (i 0).val; rw [e0, h0]; omega
  | ⟨1, _⟩ => show win0_0.index t (1 : Fin 2) * 512 + 1 * (y 1).val = (i 1).val; rw [e1, h1]; omega

/-- The block of w at every point is w. -/
theorem w_block_at (c : Dev nD) (t : Fin cfg0.N) (y : S256x512.Idx) :
    (iblk m c 1 t : Vec Ideal S256x512 .f32) y = (V m c main_arg1 : S256x512.Idx → EReal) y := by
  obtain ⟨-, -, e0, e1, -⟩ := block_indices t
  show V m c main_arg1 (((cfg0.win 1).blk t).view.emb y) = V m c main_arg1 y
  refine congrArg (V m c main_arg1) (funext fun a => Fin.ext ?_)
  match a with
  | ⟨0, _⟩ => show win0_1.index t (0 : Fin 2) * 256 + 1 * (y 0).val = (y 0).val; rw [e0]; omega
  | ⟨1, _⟩ => show win0_1.index t (1 : Fin 2) * 512 + 1 * (y 1).val = (y 1).val; rw [e1]; omega

/-- The block of the bias at every point is the bias row. -/
theorem b_block_at (c : Dev nD) (t : Fin cfg0.N) (y : S1x256.Idx) :
    (iblk m c 2 t : Vec Ideal S1x256 .f32) y = (V m c main_arg2 : S1x256.Idx → EReal) y := by
  obtain ⟨-, -, -, -, e0, e1, -⟩ := block_indices t
  show V m c main_arg2 (((cfg0.win 2).blk t).view.emb y) = V m c main_arg2 y
  refine congrArg (V m c main_arg2) (funext fun a => Fin.ext ?_)
  match a with
  | ⟨0, _⟩ => show win0_2.index t (0 : Fin 2) * 1 + 1 * (y 0).val = (y 0).val; rw [e0]; omega
  | ⟨1, _⟩ => show win0_2.index t (1 : Fin 2) * 256 + 1 * (y 1).val = (y 1).val; rw [e1]; omega

/-- Entry j of the block stored from blocks X, W, B is entry i of the scaled linear layer of arrays x, w, b when X is
    rows 4096·t … of x, W is w, B is b, and i is j moved down 4096·t rows. -/
theorem block_entry (X : Vec Ideal S4096x512 .f32) (W : Vec Ideal S256x512 .f32) (B : Vec Ideal S1x256 .f32)
    (x : S65536x512.Idx → EReal) (w : S256x512.Idx → EReal) (b : S1x256.Idx → EReal) (t : Nat)
    (hX : ∀ (y : S4096x512.Idx) (i : S65536x512.Idx), (i 0).val = 4096 * t + (y 0).val → (i 1).val = (y 1).val → X y = x i)
    (hW : ∀ y : S256x512.Idx, W y = w y) (hB : ∀ y : S1x256.Idx, B y = b y)
    (j : S4096x256.Idx) (i : S65536x256.Idx) (h0 : (i 0).val = 4096 * t + (j 0).val) (h1 : (i 1).val = (j 1).val) :
    k0_pay1 (F := Ideal) X W B j = Cert.LinearSpec.linear x w b i := by
  obtain ⟨p, q, rfl⟩ : ∃ (p : Fin 4096) (q : Fin 256), j = ix2 p q := ⟨j 0, j 1, eq_ix2 j⟩
  have h0' : (i 0).val = 4096 * t + p.val := h0
  have hq : i 1 = q := Fin.ext h1
  rw [Payload.stored_at]
  unfold Cert.LinearSpec.linear
  rw [hq, hB]
  refine congrArg₂ (· + ·) (congrArg (· * _) (Finset.sum_congr rfl fun k _ => ?_)) rfl
  rw [hX (ix2 p k) (ix2 (i 0) k) h0' rfl, hW]

/-- What point t writes back is block t of the scaled linear layer of the argument arrays. -/
theorem flushed_eq (c : Dev nD) (t : Fin cfg0.N) :
    (dats m 0 c).flushed 3 t = ((cfg0.win 3).blk t).view.read (Elt Ideal)
      (Cert.LinearSpec.linear (V m c main_arg0) (V m c main_arg1) (V m c main_arg2)) := by
  rw [Cert.KernelIdeal.Value.flushed3]
  unfold out0_3
  rw [View.canon_unit_zero zero_offsets]
  simp only [View.ld_unit_zero (S := S4096x512) zero_offsets, View.ld_unit_zero (S := S256x512) zero_offsets,
    View.ld_unit_zero (S := S1x256) zero_offsets]
  obtain ⟨-, -, -, -, -, -, e0, e1⟩ := block_indices t
  funext j
  show k0_pay1 (F := Ideal) (iblk m c 0 t) (iblk m c 1 t) (iblk m c 2 t) j
    = Cert.LinearSpec.linear (V m c main_arg0) (V m c main_arg1) (V m c main_arg2) (((cfg0.win 3).blk t).view.emb j)
  refine block_entry (iblk m c 0 t) (iblk m c 1 t) (iblk m c 2 t) (V m c main_arg0) (V m c main_arg1) (V m c main_arg2)
    t.val (x_block_at m c t) (w_block_at m c t) (b_block_at m c t) j (((cfg0.win 3).blk t).view.emb j) ?_ ?_
  · show win0_3.index t (0 : Fin 2) * 4096 + 1 * (j 0).val = 4096 * t.val + (j 0).val; rw [e0]; omega
  · show win0_3.index t (1 : Fin 2) * 256 + 1 * (j 1).val = (j 1).val; rw [e1]; omega

/-- An index of the result array is in point t's block iff each coordinate is in the block's range on its axis. -/
theorem mem_block (t : Fin cfg0.N) (i : S65536x256.Idx) :
    i ∈ ((cfg0.win 3).blk t).view.set ↔ ∀ a : Fin 2, win0_3.index t a * S4096x256.size a ≤ (i a).val
      ∧ (i a).val < win0_3.index t a * S4096x256.size a + S4096x256.size a := by
  show i ∈ ((View.whole main_v0).slice (win0_3.rect t)).set ↔ _
  rw [View.set_slice_whole, Rect.mem_set_unit]
  exact Iff.rfl

/-- Row r of the result is written at point r / 4096: the 16 row blocks tile the array. -/
theorem covered (i : S65536x256.Idx) :
    ∃ t : Fin cfg0.N, (cfg0.win 3).flush t = true ∧ i ∈ ((cfg0.win 3).blk t).view.set := by
  have hi0 : (i 0).val < 65536 := (i 0).isLt
  have hi1 : (i 1).val < 256 := (i 1).isLt
  let t : Fin cfg0.N := ⟨(i 0).val / 4096, by show (i 0).val / 4096 < grid0.N; rw [N_0]; omega⟩
  have ht : t.val = (i 0).val / 4096 := rfl
  obtain ⟨-, -, -, -, -, -, e0, e1⟩ := block_indices t
  refine ⟨t, flush0_3 t, ?_⟩
  rw [mem_block]
  intro a
  match a with
  | ⟨0, _⟩ =>
    show win0_3.index t (0 : Fin 2) * 4096 ≤ (i 0).val ∧ (i 0).val < win0_3.index t (0 : Fin 2) * 4096 + 4096
    rw [e0, ht]; omega
  | ⟨1, _⟩ =>
    show win0_3.index t (1 : Fin 2) * 256 ≤ (i 1).val ∧ (i 1).val < win0_3.index t (1 : Fin 2) * 256 + 256
    rw [e1]; omega

/-- The result array after the run is the scaled linear layer of the argument arrays. -/
theorem final (c : Dev nD) : (dats m 0 c).arrAt 3 cfg0.N
    = Cert.LinearSpec.linear (m ((c : Thread nD τ).loc main_arg0)) (m ((c : Thread nD τ).loc main_arg1))
        (m ((c : Thread nD τ).loc main_arg2)) :=
  (dats m 0 c).arrAt_eq_of_cover 3
    (Cert.LinearSpec.linear (V m c main_arg0) (V m c main_arg1) (V m c main_arg2))
    (fun t _ => flushed_eq m c t) covered

/-- The kernel's run: it terminates with the result array at the scaled linear layer of the arguments, which end
    unchanged. -/
theorem run : θ_run defs (onTc (τ := τ) (main (F := Ideal))) ⟨m, fun _ => 0, ρ⟩ fun r => ∀ c : Dev nD,
      r.2.mem ((c : Thread nD τ).loc main_v0)
        = Cert.LinearSpec.linear (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Whole

end
-- ==== Proof.lean ====
/-
  A scaled linear layer: the kernel against its plain reference, over the extended reals.

  Both programs compute, for x of 65536 rows by 512, w of 256 rows by 512 and a bias row b of length 256,

      out[r, q] = (∑ k < 512, x[r, k] * w[q, k]) * s + b[0, q] * c,

  with c the same pattern (the float nearest one tenth) in both.  The kernel walks 16 blocks of 4096 rows; on each it
  multiplies the row block of x by the transpose of w on the matrix unit (after two roundings to a shorter format,
  which are the identity on extended reals), scales by s = 1/8 and adds the bias row times c repeated down the rows.
  The reference takes one whole product of x with the transpose of w, scales by s = 1 / sqrt 64 and adds the same bias
  term.  The square root of 64 is exactly 8, so the two scales are the same number, and the two sums are the same sum
  term by term: no rearrangement of a sum, no distributivity, hence no use of the inputs' finiteness.

  The pieces:
    LinearSpec.lean     the function above, and 1 / sqrt 64 = 1/8;
    RefValue.lean       the reference's result is that function (each operation read at an index);
    LibMatmulSumT.lean  a product against a transposed right operand, read at an entry as a sum over k;
    KernelPayload.lean  the block the kernel body stores, read at an entry;
    KernelValue.lean    the 16 row blocks tile the result array, which therefore ends holding that function.
  Here: the three runs (each program terminates with its arguments unchanged), the idealization (nothing was
  rewritten, so there is nothing to preserve), and the equality of the two results.
-/
import proofs.«168770_j60790967108190_2_alg».proof.Defs
import proofs.«168770_j60790967108190_2_alg».proof.Proof.Gen.Kernel
import proofs.«168770_j60790967108190_2_alg».proof.Proof.Gen.Kernel.Skeleton
import proofs.«168770_j60790967108190_2_alg».proof.Proof.Gen.Kernel.Launch
import proofs.«168770_j60790967108190_2_alg».proof.Proof.Gen.Kernel.Points
import proofs.«168770_j60790967108190_2_alg».proof.Proof.Gen.Kernel.Frame
import proofs.«168770_j60790967108190_2_alg».proof.Proof.Gen.KernelIdeal
import proofs.«168770_j60790967108190_2_alg».proof.Proof.Gen.KernelIdeal.Skeleton
import proofs.«168770_j60790967108190_2_alg».proof.Proof.Gen.KernelIdeal.Launch
import proofs.«168770_j60790967108190_2_alg».proof.Proof.Gen.KernelIdeal.Points
import proofs.«168770_j60790967108190_2_alg».proof.Proof.Gen.KernelIdeal.Frame
import proofs.«168770_j60790967108190_2_alg».proof.Proof.Gen.ReferenceIdeal
import proofs.«168770_j60790967108190_2_alg».proof.Proof.Gen.Pre_finite_inputs
import proofs.«168770_j60790967108190_2_alg».proof.Proof.Gen.KernelIdeal.Value
import proofs.«168770_j60790967108190_2_alg».proof.Proof.Gen.ReferenceIdeal.Run
import proofs.«168770_j60790967108190_2_alg».proof.Proof.Gen.ReferenceIdeal.Read
import proofs.«168770_j60790967108190_2_alg».proof.Proof.LinearSpec
import proofs.«168770_j60790967108190_2_alg».proof.Proof.RefValue
import proofs.«168770_j60790967108190_2_alg».proof.Proof.KernelValue
import Idealize.ShloMosaic.Adequacy
import Idealize.ShloMosaic.Init

noncomputable section

namespace Cert.Proof

open Idealize.ShloMosaic Idealize.SL.Sem

/-- The kernel as printed terminates with its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both results are the scaled linear layer of the arguments, and the arguments agree. -/
theorem algebraic : Cert.algebraic_KernelIdeal_ReferenceIdeal := by
  intro m ρ m' ρ' _ hagree
  refine ⟨fun c => Cert.LinearSpec.linear
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
